-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S50000 : Shape := ⟨1, ![50000]⟩
abbrev S128x256 : Shape := ⟨2, ![128, 256]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x256 .f32) (main_arg1 : IVec S2x1600000 32) (main_arg2 : IVec S50000 32) (main_arg3 : FVec F S128x256 .f32) (main_arg4 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x256 : Shape := ⟨2, ![50000, 256]⟩
abbrev S2x1600000 : Shape := ⟨2, ![2, 1600000]⟩
abbrev S50000 : Shape := ⟨1, ![50000]⟩
abbrev S128x256 : Shape := ⟨2, ![128, 256]⟩
abbrev S128 : Shape := ⟨1, ![128]⟩
abbrev S50000x128 : Shape := ⟨2, ![50000, 128]⟩
abbrev S5000x256 : Shape := ⟨2, ![5000, 256]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S64x128 : Shape := ⟨2, ![64, 128]⟩
abbrev S50000x1 : Shape := ⟨2, ![50000, 1]⟩

abbrev nBuf : Space → Nat
  | .hbm => 74
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S50000, .i32⟩
  | .hbm, ⟨3, _⟩ => ⟨S128x256, .f32⟩
  | .hbm, ⟨4, _⟩ => ⟨S128, .f32⟩
  | .hbm, ⟨5, _⟩ => ⟨S50000x128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S1650000, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000, .f32⟩
  | .hbm, ⟨46, _⟩ => ⟨S1650000, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S64x128, .f32⟩
  | .hbm, ⟨72, _⟩ => ⟨S50000x1, .i32⟩
  | .hbm, ⟨73, _⟩ => ⟨S64x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  dot_S5000x256_S128x256_S5000x128_1_1_0_0_n_n_wf : DotDims.WF S5000x256 S128x256 S5000x128 [1] [1] [0] [0] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S64x128_S50000x1_S50000x128_1_0_0_1_wf : ScatterDims.WF S64x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S50000 : Shape := ⟨1, ![50000]⟩
abbrev S128x256 : Shape := ⟨2, ![128, 256]⟩
abbrev S128 : Shape := ⟨1, ![128]⟩
abbrev S256x128 : Shape := ⟨2, ![256, 128]⟩
abbrev S50000x128 : Shape := ⟨2, ![50000, 128]⟩
abbrev S1x128 : Shape := ⟨2, ![1, 128]⟩
abbrev S_ : Shape := ⟨0, ![]⟩
abbrev S50000x1 : Shape := ⟨2, ![50000, 1]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x128 : Shape := ⟨2, ![1650000, 128]⟩
abbrev S64x128 : Shape := ⟨2, ![64, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S50000, .i32⟩
  | .hbm, ⟨3, _⟩ => ⟨S128x256, .f32⟩
  | .hbm, ⟨4, _⟩ => ⟨S128, .f32⟩
  | .hbm, ⟨5, _⟩ => ⟨S256x128, .f32⟩
  | .hbm, ⟨6, _⟩ => ⟨S50000x128, .f32⟩
  | .hbm, ⟨7, _⟩ => ⟨S1x128, .f32⟩
  | .hbm, ⟨8, _⟩ => ⟨S50000x128, .f32⟩
  | .hbm, ⟨9, _⟩ => ⟨S50000x128, .f32⟩
  | .hbm, ⟨10, _⟩ => ⟨S50000x128, .f32⟩
  | .hbm, ⟨11, _⟩ => ⟨S50000x128, .f32⟩
  | .hbm, ⟨12, _⟩ => ⟨S_, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000, .f32⟩
  | .hbm, ⟨22, _⟩ => ⟨S50000x1, .f32⟩
  | .hbm, ⟨23, _⟩ => ⟨S50000x1, .f32⟩
  | .hbm, ⟨24, _⟩ => ⟨S_, .f32⟩
  | .hbm, ⟨25, _⟩ => ⟨S50000x1, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000, .i32⟩
  | .hbm, ⟨33, _⟩ => ⟨S1x1600000, .i32⟩
  | .hbm, ⟨34, _⟩ => ⟨S1600000, .i32⟩
  | .hbm, ⟨35, _⟩ => ⟨S1650000, .i32⟩
  | .hbm, ⟨36, _⟩ => ⟨S1x1600000, .i32⟩
  | .hbm, ⟨37, _⟩ => ⟨S1600000, .i32⟩
  | .hbm, ⟨38, _⟩ => ⟨S1650000, .i32⟩
  | .hbm, ⟨39, _⟩ => ⟨S_, .f32⟩
  | .hbm, ⟨40, _⟩ => ⟨S1650000, .f32⟩
  | .hbm, ⟨41, _⟩ => ⟨S_, .f32⟩
  | .hbm, ⟨42, _⟩ => ⟨S50000, .f32⟩
  | .hbm, ⟨43, _⟩ => ⟨S1650000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .i1⟩
  | .hbm, ⟨48, _⟩ => ⟨S50000, .f32⟩
  | .hbm, ⟨49, _⟩ => ⟨S_, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S_, .i32⟩
  | .hbm, ⟨54, _⟩ => ⟨S1650000, .i32⟩
  | .hbm, ⟨55, _⟩ => ⟨S1650000, .i1⟩
  | .hbm, ⟨56, _⟩ => ⟨S_, .i32⟩
  | .hbm, ⟨57, _⟩ => ⟨S1650000, .i32⟩
  | .hbm, ⟨58, _⟩ => ⟨S1650000, .i32⟩
  | .hbm, ⟨59, _⟩ => ⟨S1650000, .i32⟩
  | .hbm, ⟨60, _⟩ => ⟨S1650000x1, .i32⟩
  | .hbm, ⟨61, _⟩ => ⟨S1650000, .f32⟩
  | .hbm, ⟨62, _⟩ => ⟨S1650000, .f32⟩
  | .hbm, ⟨63, _⟩ => ⟨S_, .i32⟩
  | .hbm, ⟨64, _⟩ => ⟨S1650000, .i32⟩
  | .hbm, ⟨65, _⟩ => ⟨S1650000, .i1⟩
  | .hbm, ⟨66, _⟩ => ⟨S_, .i32⟩
  | .hbm, ⟨67, _⟩ => ⟨S1650000, .i32⟩
  | .hbm, ⟨68, _⟩ => ⟨S1650000, .i32⟩
  | .hbm, ⟨69, _⟩ => ⟨S1650000, .i32⟩
  | .hbm, ⟨70, _⟩ => ⟨S1650000x1, .i32⟩
  | .hbm, ⟨71, _⟩ => ⟨S1650000, .f32⟩
  | .hbm, ⟨72, _⟩ => ⟨S1650000, .f32⟩
  | .hbm, ⟨73, _⟩ => ⟨S_, .i32⟩
  | .hbm, ⟨74, _⟩ => ⟨S1650000, .i32⟩
  | .hbm, ⟨75, _⟩ => ⟨S1650000, .i1⟩
  | .hbm, ⟨76, _⟩ => ⟨S_, .i32⟩
  | .hbm, ⟨77, _⟩ => ⟨S1650000, .i32⟩
  | .hbm, ⟨78, _⟩ => ⟨S1650000, .i32⟩
  | .hbm, ⟨79, _⟩ => ⟨S1650000, .i32⟩
  | .hbm, ⟨80, _⟩ => ⟨S1650000x1, .i32⟩
  | .hbm, ⟨81, _⟩ => ⟨S1650000x128, .f32⟩
  | .hbm, ⟨82, _⟩ => ⟨S1650000x1, .f32⟩
  | .hbm, ⟨83, _⟩ => ⟨S1650000x128, .f32⟩
  | .hbm, ⟨84, _⟩ => ⟨S1650000x128, .f32⟩
  | .hbm, ⟨85, _⟩ => ⟨S_, .f32⟩
  | .hbm, ⟨86, _⟩ => ⟨S50000x128, .f32⟩
  | .hbm, ⟨87, _⟩ => ⟨S1650000x1, .i32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S64x128, .f32⟩
  | .hbm, ⟨98, _⟩ => ⟨S50000x1, .i32⟩
  | .hbm, ⟨99, _⟩ => ⟨S64x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v30 : Ref sig .tc := ⟨.hbm, 52, rfl⟩
abbrev main_c : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_7 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S64x128 : S_.BroadcastsInDim S64x128 (![] : Fin 0 → Fin S64x128.rank)
  dot_S50000x256_S256x128_S50000x128_1_0_0_1_n_n_wf : DotDims.WF S50000x256 S256x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S64x128_S50000x1_S50000x128_1_0_0_1_wf : ScatterDims.WF S64x128 S50000x1 S50000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

class Facts : Prop extends Facts₀ where

variable [Facts]
-- ==== Proof.KBody.lean ====
/-
  The kernel body on one grid point, as a separation-logic triple at any float instance.

  The body reads three staging buffers whole — a 5000×256 block of x, the 128×256 weight matrix and the length-128
  bias — and overwrites the 5000×128 output staging buffer whole with ONE pure function of the three values read
  (the payload: the projected rows plus bias, times their logistic, divided by the clamped row norm, times 1.8).
  It also reads the output buffer before storing to it; that value is not used, so the buffer may hold anything on
  entry. Afterwards the three inputs are as they were and the output buffer holds the payload.
-/
import proofs.«147350_j21620865368393_1_alg».proof.Proof.Gen.Kernel.Launch
import proofs.«147350_j21620865368393_1_alg».proof.Proof.Gen.Kernel.Skeleton
import proofs.«147350_j21620865368393_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole x block, the whole weight matrix, the whole bias vector and the whole output block, as the rectangles
    the body's loads and its one store go through. -/
abbrev rectX : Rect S5000x256 := Rect.unit (s := S5000x256) ![0, 0] S5000x256.size inb_S5000x256_S5000x256_0_0
abbrev rectW : Rect S128x256 := Rect.unit (s := S128x256) ![0, 0] S128x256.size inb_S128x256_S128x256_0_0
abbrev rectB : Rect S128 := Rect.unit (s := S128) ![0] S128.size inb_S128_S128_0
abbrev rectO : Rect S5000x128 := Rect.unit (s := S5000x128) ![0, 0] S5000x128.size inb_S5000x128_S5000x128_0_0

/-- What the output staging buffer holds after the body, from the three input buffers' contents: the one store's
    payload laid over the whole buffer. -/
def blockOut (x : Vec F S5000x256 .f32) (w : Vec F S128x256 .f32) (b : Vec F S128 .f32) : Vec F S5000x128 .f32 :=
  View.canon [⟨rectO, k0_pay1 (View.ld x rectX) (View.ld w rectW) (View.ld b rectB)⟩]

/-- The one store's rectangle is the whole output buffer, so every index is stored to. -/
theorem store_covers (p : Vec F S5000x128 .f32) (y : S5000x128.Idx) :
    ∃ pc ∈ ([⟨rectO, p⟩] : List (View.Piece (Elt F) S5000x128 .f32)), y ∈ pc.1.set :=
  View.cover_of_tiled [⟨rectO, p⟩] S5000x128.size (by rfl) y

set_option maxHeartbeats 1000000 in
/-- The body's triple: from the three inputs whole at `x`, `w`, `b` and the output buffer whole at anything, to the
    inputs unchanged and the output buffer at `blockOut x w b`. -/
theorem body_triple (c : Dev nD) (E : Set ℕ) (i : grid0.Coords)
    (arg1 : Memref sig .tc .vmem S5000x256 .f32) (harg1 : arg1.IsWhole)
    (arg2 : Memref sig .tc .vmem S128x256 .f32) (harg2 : arg2.IsWhole)
    (arg3 : Memref sig .tc .vmem S128 .f32) (harg3 : arg3.IsWhole)
    (arg4 : Memref sig .tc .vmem S5000x128 .f32) (harg4 : arg4.IsWhole)
    (x : Vec F S5000x256 .f32) (w : Vec F S128x256 .f32) (b : Vec F S128 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (blockOut x w b)) -∗ K ⟨⟩))
      ⊢ wp frame (wpE (defs₀ (F := F)) Variants.none c none) E
          (cc0__linear_silu_norm_kernel i arg1 harg1 arg2 harg2 arg3 harg3 arg4 harg4) K := by
  simp only [cc0__linear_silu_norm_kernel_eq_skeleton]; unfold cc0__linear_silu_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.Kernel.Dense

end
-- ==== Proof.KHost.lean ====
/-
  The host side of the program around its one kernel launch, at any float instance.

  @main launches the kernel first and then runs 68 host operations (a first stretch of 18, the 3 operations of the
  outlined `where`, a last stretch of 47). Nothing precedes the launch, so the launch finds every buffer as the
  program was started. Each later operation writes one fresh result buffer of its own: none writes an array the
  pipeline stages (x, the weights, the bias, the kernel's result), none allocates, and all of them touch
  TensorCore buffers only. Hence @main is the launch continued by the three stretches, and the five argument
  arrays are never written.
-/
import proofs.«147350_j21620865368393_1_alg».proof.Proof.Gen.Kernel.Launch
import Idealize.ShloMosaic.Lib.Pipeline.FrameBody
import Idealize.ShloMosaic.Lib.Pipeline.FrameSuffix

set_option maxRecDepth 16384

noncomputable section

namespace Cert.Kernel.Dense

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the kernel is launched: no host operation comes before the launch, so they are the
    start contents (the fold of an empty list of operations over them). -/
abbrev entry (c : Dev nD) : Valuation τ sig (Elt F) :=
  StableHlo.after (List.flatten ([] : List (List (HloOp τ sig (Elt F))))) (fun b => m (c, b))
/-- The same read at a TensorCore reference. -/
abbrev entryAt (c : Dev nD) (b : Ref sig .tc) : Buf (Elt F) ((c : Thread nD τ).loc b) := entry m c (Proc.devRef .tc b)

/-- The three stretches of host operations after the launch. -/
abbrev tailOps : List (List (HloOp τ sig (Elt F))) := [hostOps1, hostOps1_1, hostOps1_2]

theorem fresh_a : (hostOps1 : List (HloOp τ sig (Elt F))).Forall fun op => op.fresh = ∅ := by
  simp only [List.Forall]; repeat' constructor
theorem fresh_b : (hostOps1_1 : List (HloOp τ sig (Elt F))).Forall fun op => op.fresh = ∅ := by
  simp only [List.Forall]; repeat' constructor
theorem fresh_c : (hostOps1_2 : List (HloOp τ sig (Elt F))).Forall fun op => op.fresh = ∅ := by
  simp only [List.Forall]; repeat' constructor

/-- @main is the launch continued by the three stretches, entered at the start contents. -/
theorem main_is_launch_then_tail (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1, StableHlo.seq hostOps1_1, StableHlo.seq hostOps1_2]) :=
  Pipeline.hmain_around cfgs 0 defs₀ 𝒱₀ m main [] [hostOps1, hostOps1_1, hostOps1_2] (by simp only [List.Forall])
    (by simp only [List.Forall]) main_chain

/-- The later operations touch only the pipeline's arrays and the buffers that bypass the launch. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh_a) op hop
  · exact (List.forall_iff_forall_mem.mp fresh_b) op hop
  · exact (List.forall_iff_forall_mem.mp fresh_c) op hop

/-- No operation of the first stretch writes an array the pipeline stages. -/
theorem keeps_a : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Nor one of the outlined `where`. -/
theorem keeps_b : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Nor one of the last stretch. -/
theorem keeps_c : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp keeps_a) op hop
  · exact (List.forall_iff_forall_mem.mp keeps_b) op hop
  · exact (List.forall_iff_forall_mem.mp keeps_c) op hop

/-- A reference none of the 68 later operations writes keeps, through all of them, what the launch left there. -/
theorem tail_unwritten (V : Valuation τ sig (Elt F)) (r : Ref sig .tc)
    (ha : (hostOps1 : List (HloOp τ sig (Elt F))).Forall fun op => Proc.devRef .tc r ∉ op.writes)
    (hb : (hostOps1_1 : List (HloOp τ sig (Elt F))).Forall fun op => Proc.devRef .tc r ∉ op.writes)
    (hc : (hostOps1_2 : List (HloOp τ sig (Elt F))).Forall fun op => Proc.devRef .tc r ∉ op.writes) :
    StableHlo.after (tailOps (F := F)).flatten V (Proc.devRef .tc r) = V (Proc.devRef .tc r) := by
  refine StableHlo.after_of_forall_not_mem _ _ fun op hop => ?_
  simp only [List.flatten_cons, List.flatten_nil, List.append_nil, List.mem_append] at hop
  rcases hop with h | h | h
  · exact (List.forall_iff_forall_mem.mp ha) op h
  · exact (List.forall_iff_forall_mem.mp hb) op h
  · exact (List.forall_iff_forall_mem.mp hc) op h

end Cert.Kernel.Dense

end
-- ==== Proof.KRun.lean ====
/-
  The whole run of the program, at any float instance: the kernel launched over its ten grid points, then the 68
  host operations.

  The pipeline stages four arrays: x in blocks of 5000 rows (block t at point t), the weight matrix and the bias whole
  (fetched once, at the first point, and left in place), and the kernel's result in blocks of 5000 rows, each written
  back at its own point. At every point the three input staging buffers therefore hold their blocks of the arrays as
  launched, whether or not that point fetched them, and the body (the triple of the body module) leaves the output
  staging buffer at the body's function of those three blocks. With this proof data the library's frame run gives:
  every weakly fair execution terminates, nothing faults, every staged array ends at what the data computes (an
  input: unchanged), and every other buffer at what the 68 later operations compute from the launch's exit.
-/
import proofs.«147350_j21620865368393_1_alg».proof.Proof.KBody
import proofs.«147350_j21620865368393_1_alg».proof.Proof.KHost

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-- An input window's current staging buffer holds its block at every point, fetched there or not: unfetched, the
    block index has not moved since the point that did fetch it, and the body leaves the block in place. Stated for
    any proof data whose arrays are the launch contents and whose body keeps that window's block. -/
theorem x_held {c : Dev nD} (dat : Dat τ (Elt F) Unit ℕ (UR sig nD τ) ℕ cfg0 c)
    (hA : dat.A 0 = entryAt m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem w_held {c : Dev nD} (dat : Dat τ (Elt F) Unit ℕ (UR sig nD τ) ℕ cfg0 c)
    (hA : dat.A 1 = entryAt m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem b_held {c : Dev nD} (dat : Dat τ (Elt F) Unit ℕ (UR sig nD τ) ℕ cfg0 c)
    (hA : dat.A 2 = entryAt m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-- The proof data on core `c`: the arrays as launched; after the body at point `t` each input's buffer at its block
    and the output's at the body's function of the three input blocks; the invariant is the untouched rest; nothing
    is owed; full shares. -/
def pdat (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockOut (blockAt m c 0 t) (blockAt m c 1 t) (blockAt m c 2 t)
  Φ _ := Pipeline.ΦA spec0 c
  q _ := fullShare
  owed _ := 0

theorem arrays_eq (c : Dev nD) (w : Fin cfg0.W) : (pdat m 0 c).A w = entryAt m c (Pipeline.arrRef spec0 w) := by
  dsimp only [pdat]

theorem after_x (c : Dev nD) (t : Fin cfg0.N) : (pdat m 0 c).after 0 t = blockAt m c 0 t := by dsimp only [pdat]
theorem after_w (c : Dev nD) (t : Fin cfg0.N) : (pdat m 0 c).after 1 t = blockAt m c 1 t := by dsimp only [pdat]
theorem after_b (c : Dev nD) (t : Fin cfg0.N) : (pdat m 0 c).after 2 t = blockAt m c 2 t := by dsimp only [pdat]
theorem after_o (c : Dev nD) (t : Fin cfg0.N) :
    (pdat m 0 c).after 3 t = blockOut (blockAt m c 0 t) (blockAt m c 1 t) (blockAt m c 2 t) := by dsimp only [pdat]

theorem held_x (c : Dev nD) (t : Fin cfg0.N) (d) : (pdat m 0 c).before 0 t d = blockAt m c 0 t :=
  x_held m (pdat m 0 c) (arrays_eq m c 0) (after_x m c) t d
theorem held_w (c : Dev nD) (t : Fin cfg0.N) (d) : (pdat m 0 c).before 1 t d = blockAt m c 1 t :=
  w_held m (pdat m 0 c) (arrays_eq m c 1) (after_w m c) t d
theorem held_b (c : Dev nD) (t : Fin cfg0.N) (d) : (pdat m 0 c).before 2 t d = blockAt m c 2 t :=
  b_held m (pdat m 0 c) (arrays_eq m c 2) (after_b m c) t d

/-- What the body is called with at point `t`, -/
def bodyPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d)))

/-- and what it returns. -/
def bodyPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t))

/-- The body at any point: the three input buffers hold their blocks, so the body's triple applies; the invariant and
    what the core owes pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_x, held_w, held_b]
  rw [show (pdat m 0 c).Φ t.succ = (pdat m 0 c).Φ t.castSucc from rfl,
    show (pdat m 0 c).owesAt () t.succ = (pdat m 0 c).owesAt () t.castSucc from rfl,
    after_x, after_w, after_b, after_o]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (pdat (F := F) m 0 c) (defs₀ (F := F)) Variants.none () Set.univ := fun t => by
  rw [bigSep_W0, bigSep_W0]
  exact body_at_point m c t

set_option backward.isDefEq.respectTransparency.types false in
/-- The run: every weakly fair execution of @main terminates without a fault; every staged array ends at what the
    proof data computes and every other unscoped buffer at what the 68 later operations leave there. -/
theorem run_all : θ_run defs (onTc (τ := τ) (main (F := F))) (s₀ m ρ)
    (Pipeline.FramePost cfgs (pdat m) 0 (Pipeline.afterTail₀ cfgs (pdat m) 0 (entry m) tailOps)) :=
  Pipeline.θ_run_frame_around cfgs (pdat m) (0 : Fin 1) launch0 defs₀ Variants.none m ρ main
    (hbody := fun c => (body_obligation m c).loose) (hshare := fun c => (pdat m 0 c).share_full fun _ => rfl)
    (howed := fun _ _ => rfl) (V₀ := entry m) (opss := tailOps) (hsub := tail_sub) (hfresh := tail_fresh) (hkeep := tail_keeps)
    (hmain := main_is_launch_then_tail m Variants.none) (hA := arrays_eq m) (hΦ := fun _ _ => rfl)

/-- An input window's array ends as launched. -/
theorem staged_input_kept (c : Dev nD) (w : Fin cfg0.W) (hin : (cfg0.win w).isOut = false) :
    (pdat m 0 c).arrAt w cfg0.N = m ((c : Thread nD τ).loc (Pipeline.arrRef spec0 w)) :=
  ((pdat m 0 c).arrAt_in w hin _).trans (arrays_eq m c w)

/-- The edge list and the batch vector bypass the launch and no later operation writes them: they end as launched. -/
theorem edges_kept (c : Dev nD) :
    Pipeline.afterTail₀ cfgs (pdat m) 0 (entry m) tailOps c main_arg1 = m ((c : Thread nD τ).loc main_arg1) := by
  unfold Pipeline.afterTail₀
  rw [tail_unwritten _ main_arg1
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)),
    Pipeline.withArrays_of_ne _ c (entry m c) _ main_arg1 (by exact (by decide : ∀ w, Pipeline.arrRef spec0 w ≠ main_arg1))]
  rfl
theorem batch_kept (c : Dev nD) :
    Pipeline.afterTail₀ cfgs (pdat m) 0 (entry m) tailOps c main_arg2 = m ((c : Thread nD τ).loc main_arg2) := by
  unfold Pipeline.afterTail₀
  rw [tail_unwritten _ main_arg2
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)),
    Pipeline.withArrays_of_ne _ c (entry m c) _ main_arg2 (by exact (by decide : ∀ w, Pipeline.arrRef spec0 w ≠ main_arg2))]
  rfl

/-- THE FRAME: the program runs to the end without a fault and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (staged_input_kept m c 0 rfl),
     ((h c).2 main_arg1 (Pipeline.mem_restRefs_of main_arg1 (by decide) (by decide))).trans (edges_kept m c),
     ((h c).2 main_arg2 (Pipeline.mem_restRefs_of main_arg2 (by decide) (by decide))).trans (batch_kept m c),
     ((h c).1 1).trans (staged_input_kept m c 1 rfl),
     ((h c).1 2).trans (staged_input_kept m c 2 rfl)⟩) (run_all m ρ)

end Cert.Kernel.Dense

end
-- ==== Proof.KIBody.lean ====
/-
  The kernel body on one grid point, as a separation-logic triple at any float instance.

  The body reads three staging buffers whole — a 5000×256 block of x, the 128×256 weight matrix and the length-128
  bias — and overwrites the 5000×128 output staging buffer whole with ONE pure function of the three values read
  (the payload: the projected rows plus bias, times their logistic, divided by the clamped row norm, times 1.8).
  It also reads the output buffer before storing to it; that value is not used, so the buffer may hold anything on
  entry. Afterwards the three inputs are as they were and the output buffer holds the payload.
-/
import proofs.«147350_j21620865368393_1_alg».proof.Proof.Gen.KernelIdeal.Launch
import proofs.«147350_j21620865368393_1_alg».proof.Proof.Gen.KernelIdeal.Skeleton
import proofs.«147350_j21620865368393_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole x block, the whole weight matrix, the whole bias vector and the whole output block, as the rectangles
    the body's loads and its one store go through. -/
abbrev rectX : Rect S5000x256 := Rect.unit (s := S5000x256) ![0, 0] S5000x256.size inb_S5000x256_S5000x256_0_0
abbrev rectW : Rect S128x256 := Rect.unit (s := S128x256) ![0, 0] S128x256.size inb_S128x256_S128x256_0_0
abbrev rectB : Rect S128 := Rect.unit (s := S128) ![0] S128.size inb_S128_S128_0
abbrev rectO : Rect S5000x128 := Rect.unit (s := S5000x128) ![0, 0] S5000x128.size inb_S5000x128_S5000x128_0_0

/-- What the output staging buffer holds after the body, from the three input buffers' contents: the one store's
    payload laid over the whole buffer. -/
def blockOut (x : Vec F S5000x256 .f32) (w : Vec F S128x256 .f32) (b : Vec F S128 .f32) : Vec F S5000x128 .f32 :=
  View.canon [⟨rectO, k0_pay1 (View.ld x rectX) (View.ld w rectW) (View.ld b rectB)⟩]

/-- The one store's rectangle is the whole output buffer, so every index is stored to. -/
theorem store_covers (p : Vec F S5000x128 .f32) (y : S5000x128.Idx) :
    ∃ pc ∈ ([⟨rectO, p⟩] : List (View.Piece (Elt F) S5000x128 .f32)), y ∈ pc.1.set :=
  View.cover_of_tiled [⟨rectO, p⟩] S5000x128.size (by rfl) y

set_option maxHeartbeats 1000000 in
/-- The body's triple: from the three inputs whole at `x`, `w`, `b` and the output buffer whole at anything, to the
    inputs unchanged and the output buffer at `blockOut x w b`. -/
theorem body_triple (c : Dev nD) (E : Set ℕ) (i : grid0.Coords)
    (arg1 : Memref sig .tc .vmem S5000x256 .f32) (harg1 : arg1.IsWhole)
    (arg2 : Memref sig .tc .vmem S128x256 .f32) (harg2 : arg2.IsWhole)
    (arg3 : Memref sig .tc .vmem S128 .f32) (harg3 : arg3.IsWhole)
    (arg4 : Memref sig .tc .vmem S5000x128 .f32) (harg4 : arg4.IsWhole)
    (x : Vec F S5000x256 .f32) (w : Vec F S128x256 .f32) (b : Vec F S128 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (blockOut x w b)) -∗ K ⟨⟩))
      ⊢ wp frame (wpE (defs₀ (F := F)) Variants.none c none) E
          (cc0__linear_silu_norm_kernel i arg1 harg1 arg2 harg2 arg3 harg3 arg4 harg4) K := by
  simp only [cc0__linear_silu_norm_kernel_eq_skeleton]; unfold cc0__linear_silu_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.KernelIdeal.Dense

end
-- ==== Proof.KIHost.lean ====
/-
  The host side of the program around its one kernel launch, at any float instance.

  @main launches the kernel first and then runs 68 host operations (a first stretch of 18, the 3 operations of the
  outlined `where`, a last stretch of 47). Nothing precedes the launch, so the launch finds every buffer as the
  program was started. Each later operation writes one fresh result buffer of its own: none writes an array the
  pipeline stages (x, the weights, the bias, the kernel's result), none allocates, and all of them touch
  TensorCore buffers only. Hence @main is the launch continued by the three stretches, and the five argument
  arrays are never written.
-/
import proofs.«147350_j21620865368393_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Dense

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the kernel is launched: no host operation comes before the launch, so they are the
    start contents (the fold of an empty list of operations over them). -/
abbrev entry (c : Dev nD) : Valuation τ sig (Elt F) :=
  StableHlo.after (List.flatten ([] : List (List (HloOp τ sig (Elt F))))) (fun b => m (c, b))
/-- The same read at a TensorCore reference. -/
abbrev entryAt (c : Dev nD) (b : Ref sig .tc) : Buf (Elt F) ((c : Thread nD τ).loc b) := entry m c (Proc.devRef .tc b)

/-- The three stretches of host operations after the launch. -/
abbrev tailOps : List (List (HloOp τ sig (Elt F))) := [hostOps1, hostOps1_1, hostOps1_2]

theorem fresh_a : (hostOps1 : List (HloOp τ sig (Elt F))).Forall fun op => op.fresh = ∅ := by
  simp only [List.Forall]; repeat' constructor
theorem fresh_b : (hostOps1_1 : List (HloOp τ sig (Elt F))).Forall fun op => op.fresh = ∅ := by
  simp only [List.Forall]; repeat' constructor
theorem fresh_c : (hostOps1_2 : List (HloOp τ sig (Elt F))).Forall fun op => op.fresh = ∅ := by
  simp only [List.Forall]; repeat' constructor

/-- @main is the launch continued by the three stretches, entered at the start contents. -/
theorem main_is_launch_then_tail (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1, StableHlo.seq hostOps1_1, StableHlo.seq hostOps1_2]) :=
  Pipeline.hmain_around cfgs 0 defs₀ 𝒱₀ m main [] [hostOps1, hostOps1_1, hostOps1_2] (by simp only [List.Forall])
    (by simp only [List.Forall]) main_chain

/-- The later operations touch only the pipeline's arrays and the buffers that bypass the launch. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh_a) op hop
  · exact (List.forall_iff_forall_mem.mp fresh_b) op hop
  · exact (List.forall_iff_forall_mem.mp fresh_c) op hop

/-- No operation of the first stretch writes an array the pipeline stages. -/
theorem keeps_a : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Nor one of the outlined `where`. -/
theorem keeps_b : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- Nor one of the last stretch. -/
theorem keeps_c : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp keeps_a) op hop
  · exact (List.forall_iff_forall_mem.mp keeps_b) op hop
  · exact (List.forall_iff_forall_mem.mp keeps_c) op hop

/-- A reference none of the 68 later operations writes keeps, through all of them, what the launch left there. -/
theorem tail_unwritten (V : Valuation τ sig (Elt F)) (r : Ref sig .tc)
    (ha : (hostOps1 : List (HloOp τ sig (Elt F))).Forall fun op => Proc.devRef .tc r ∉ op.writes)
    (hb : (hostOps1_1 : List (HloOp τ sig (Elt F))).Forall fun op => Proc.devRef .tc r ∉ op.writes)
    (hc : (hostOps1_2 : List (HloOp τ sig (Elt F))).Forall fun op => Proc.devRef .tc r ∉ op.writes) :
    StableHlo.after (tailOps (F := F)).flatten V (Proc.devRef .tc r) = V (Proc.devRef .tc r) := by
  refine StableHlo.after_of_forall_not_mem _ _ fun op hop => ?_
  simp only [List.flatten_cons, List.flatten_nil, List.append_nil, List.mem_append] at hop
  rcases hop with h | h | h
  · exact (List.forall_iff_forall_mem.mp ha) op h
  · exact (List.forall_iff_forall_mem.mp hb) op h
  · exact (List.forall_iff_forall_mem.mp hc) op h

end Cert.KernelIdeal.Dense

end
-- ==== Proof.KIRun.lean ====
/-
  The whole run of the program, at any float instance: the kernel launched over its ten grid points, then the 68
  host operations.

  The pipeline stages four arrays: x in blocks of 5000 rows (block t at point t), the weight matrix and the bias whole
  (fetched once, at the first point, and left in place), and the kernel's result in blocks of 5000 rows, each written
  back at its own point. At every point the three input staging buffers therefore hold their blocks of the arrays as
  launched, whether or not that point fetched them, and the body (the triple of the body module) leaves the output
  staging buffer at the body's function of those three blocks. With this proof data the library's frame run gives:
  every weakly fair execution terminates, nothing faults, every staged array ends at what the data computes (an
  input: unchanged), and every other buffer at what the 68 later operations compute from the launch's exit.
-/
import proofs.«147350_j21620865368393_1_alg».proof.Proof.KIBody
import proofs.«147350_j21620865368393_1_alg».proof.Proof.KIHost

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-- An input window's current staging buffer holds its block at every point, fetched there or not: unfetched, the
    block index has not moved since the point that did fetch it, and the body leaves the block in place. Stated for
    any proof data whose arrays are the launch contents and whose body keeps that window's block. -/
theorem x_held {c : Dev nD} (dat : Dat τ (Elt F) Unit ℕ (UR sig nD τ) ℕ cfg0 c)
    (hA : dat.A 0 = entryAt m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem w_held {c : Dev nD} (dat : Dat τ (Elt F) Unit ℕ (UR sig nD τ) ℕ cfg0 c)
    (hA : dat.A 1 = entryAt m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem b_held {c : Dev nD} (dat : Dat τ (Elt F) Unit ℕ (UR sig nD τ) ℕ cfg0 c)
    (hA : dat.A 2 = entryAt m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-- The proof data on core `c`: the arrays as launched; after the body at point `t` each input's buffer at its block
    and the output's at the body's function of the three input blocks; the invariant is the untouched rest; nothing
    is owed; full shares. -/
def pdat (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockOut (blockAt m c 0 t) (blockAt m c 1 t) (blockAt m c 2 t)
  Φ _ := Pipeline.ΦA spec0 c
  q _ := fullShare
  owed _ := 0

theorem arrays_eq (c : Dev nD) (w : Fin cfg0.W) : (pdat m 0 c).A w = entryAt m c (Pipeline.arrRef spec0 w) := by
  dsimp only [pdat]

theorem after_x (c : Dev nD) (t : Fin cfg0.N) : (pdat m 0 c).after 0 t = blockAt m c 0 t := by dsimp only [pdat]
theorem after_w (c : Dev nD) (t : Fin cfg0.N) : (pdat m 0 c).after 1 t = blockAt m c 1 t := by dsimp only [pdat]
theorem after_b (c : Dev nD) (t : Fin cfg0.N) : (pdat m 0 c).after 2 t = blockAt m c 2 t := by dsimp only [pdat]
theorem after_o (c : Dev nD) (t : Fin cfg0.N) :
    (pdat m 0 c).after 3 t = blockOut (blockAt m c 0 t) (blockAt m c 1 t) (blockAt m c 2 t) := by dsimp only [pdat]

theorem held_x (c : Dev nD) (t : Fin cfg0.N) (d) : (pdat m 0 c).before 0 t d = blockAt m c 0 t :=
  x_held m (pdat m 0 c) (arrays_eq m c 0) (after_x m c) t d
theorem held_w (c : Dev nD) (t : Fin cfg0.N) (d) : (pdat m 0 c).before 1 t d = blockAt m c 1 t :=
  w_held m (pdat m 0 c) (arrays_eq m c 1) (after_w m c) t d
theorem held_b (c : Dev nD) (t : Fin cfg0.N) (d) : (pdat m 0 c).before 2 t d = blockAt m c 2 t :=
  b_held m (pdat m 0 c) (arrays_eq m c 2) (after_b m c) t d

/-- What the body is called with at point `t`, -/
def bodyPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d)))

/-- and what it returns. -/
def bodyPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t))

/-- The body at any point: the three input buffers hold their blocks, so the body's triple applies; the invariant and
    what the core owes pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_x, held_w, held_b]
  rw [show (pdat m 0 c).Φ t.succ = (pdat m 0 c).Φ t.castSucc from rfl,
    show (pdat m 0 c).owesAt () t.succ = (pdat m 0 c).owesAt () t.castSucc from rfl,
    after_x, after_w, after_b, after_o]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (pdat (F := F) m 0 c) (defs₀ (F := F)) Variants.none () Set.univ := fun t => by
  rw [bigSep_W0, bigSep_W0]
  exact body_at_point m c t

set_option backward.isDefEq.respectTransparency.types false in
/-- The run: every weakly fair execution of @main terminates without a fault; every staged array ends at what the
    proof data computes and every other unscoped buffer at what the 68 later operations leave there. -/
theorem run_all : θ_run defs (onTc (τ := τ) (main (F := F))) (s₀ m ρ)
    (Pipeline.FramePost cfgs (pdat m) 0 (Pipeline.afterTail₀ cfgs (pdat m) 0 (entry m) tailOps)) :=
  Pipeline.θ_run_frame_around cfgs (pdat m) (0 : Fin 1) launch0 defs₀ Variants.none m ρ main
    (hbody := fun c => (body_obligation m c).loose) (hshare := fun c => (pdat m 0 c).share_full fun _ => rfl)
    (howed := fun _ _ => rfl) (V₀ := entry m) (opss := tailOps) (hsub := tail_sub) (hfresh := tail_fresh) (hkeep := tail_keeps)
    (hmain := main_is_launch_then_tail m Variants.none) (hA := arrays_eq m) (hΦ := fun _ _ => rfl)

/-- An input window's array ends as launched. -/
theorem staged_input_kept (c : Dev nD) (w : Fin cfg0.W) (hin : (cfg0.win w).isOut = false) :
    (pdat m 0 c).arrAt w cfg0.N = m ((c : Thread nD τ).loc (Pipeline.arrRef spec0 w)) :=
  ((pdat m 0 c).arrAt_in w hin _).trans (arrays_eq m c w)

/-- The edge list and the batch vector bypass the launch and no later operation writes them: they end as launched. -/
theorem edges_kept (c : Dev nD) :
    Pipeline.afterTail₀ cfgs (pdat m) 0 (entry m) tailOps c main_arg1 = m ((c : Thread nD τ).loc main_arg1) := by
  unfold Pipeline.afterTail₀
  rw [tail_unwritten _ main_arg1
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)),
    Pipeline.withArrays_of_ne _ c (entry m c) _ main_arg1 (by exact (by decide : ∀ w, Pipeline.arrRef spec0 w ≠ main_arg1))]
  rfl
theorem batch_kept (c : Dev nD) :
    Pipeline.afterTail₀ cfgs (pdat m) 0 (entry m) tailOps c main_arg2 = m ((c : Thread nD τ).loc main_arg2) := by
  unfold Pipeline.afterTail₀
  rw [tail_unwritten _ main_arg2
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)),
    Pipeline.withArrays_of_ne _ c (entry m c) _ main_arg2 (by exact (by decide : ∀ w, Pipeline.arrRef spec0 w ≠ main_arg2))]
  rfl

/-- THE FRAME: the program runs to the end without a fault and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (staged_input_kept m c 0 rfl),
     ((h c).2 main_arg1 (Pipeline.mem_restRefs_of main_arg1 (by decide) (by decide))).trans (edges_kept m c),
     ((h c).2 main_arg2 (Pipeline.mem_restRefs_of main_arg2 (by decide) (by decide))).trans (batch_kept m c),
     ((h c).1 1).trans (staged_input_kept m c 1 rfl),
     ((h c).1 2).trans (staged_input_kept m c 2 rfl)⟩) (run_all m ρ)

end Cert.KernelIdeal.Dense

end
-- ==== Proof.DenseSpec.lean ====
/-
  The dense stage as one function, on the extended reals.

  For a row `xr` of 256 inputs, a 128×256 weight matrix `W` and a length-128 bias `b`:
    pre c  = (Σ_k xr k · W c k) + b c                 the projected row plus bias,
    act c  = pre c · logistic (pre c)                 times its logistic,
    out c  = act c / max (√(0 + Σ_k act k · act k)) ε · s   the row scaled to length s, the norm clamped below by ε,
  with ε and s the values of two float words (the same words on both sides of the comparison, never evaluated). The
  starting value of the sum of squares is kept as the zero WORD's value: the host's reduction reads it so, and the
  vector unit's sum from a zero accumulator equals it once that word is read as 0.
  `dense x W b` is the 50000×128 array whose row P is `out` of row P of x.
-/
import Idealize.ShloMosaic.PureOps.Ideal.Laws
import Idealize.ShloMosaic.Lib.ValueIdx

noncomputable section

open scoped BigOperators

namespace Cert.DenseSpec

open Idealize.ShloMosaic Idealize.ShloMosaic.ValueIdx

/-- The word of the float 1.0 is the number one. -/
theorem one_f32 : Ideal.ofBits .f32 0x3F800000#32 = 1 := by
  simp [Ideal.ofBits, Ideal.ieee]
  first
    | (rw [← EReal.coe_mul]; norm_num)
    | (norm_cast; norm_num)
    | norm_num

/-- The projected row plus bias, at column `c`. -/
def pre (xr : Fin 256 → EReal) (W : Fin 128 → Fin 256 → EReal) (b : Fin 128 → EReal) (c : Fin 128) : EReal :=
  (∑ k : Fin 256, xr k * W c k) + b c

/-- `h · logistic h`. -/
def act (h : EReal) : EReal := h * Ideal.logistic h

/-- The sum of the squares of the activated row, from the zero word's value. -/
def sumsq (xr : Fin 256 → EReal) (W : Fin 128 → Fin 256 → EReal) (b : Fin 128 → EReal) : EReal :=
  Ideal.ofBits .f32 0x00000000#32 + ∑ k : Fin 128, act (pre xr W b k) * act (pre xr W b k)

/-- One entry of the normalised, scaled row. -/
def out (xr : Fin 256 → EReal) (W : Fin 128 → Fin 256 → EReal) (b : Fin 128 → EReal) (c : Fin 128) : EReal :=
  Ideal.div (act (pre xr W b c)) (max (Ideal.sqrt (sumsq xr W b)) (Ideal.ofBits .f32 0x2B8CBCCC#32))
    * Ideal.ofBits .f32 0x3FE66666#32

/-- The whole 50000×128 result: row `P` is `out` of row `P` of `x`. -/
def dense (x : (⟨2, ![50000, 256]⟩ : Shape).Idx → EReal) (W : (⟨2, ![128, 256]⟩ : Shape).Idx → EReal)
    (b : (⟨1, ![128]⟩ : Shape).Idx → EReal) : (⟨2, ![50000, 128]⟩ : Shape).Idx → EReal :=
  fun i => out (fun k => x (ix2 (i 0 : Fin 50000) k)) (fun c k => W (ix2 c k)) (fun c => b (ix1 c)) (i 1 : Fin 128)

theorem dense_apply (x : (⟨2, ![50000, 256]⟩ : Shape).Idx → EReal) (W : (⟨2, ![128, 256]⟩ : Shape).Idx → EReal)
    (b : (⟨1, ![128]⟩ : Shape).Idx → EReal) (P : Fin 50000) (q : Fin 128) :
    dense x W b (ix2 P q) = out (fun k => x (ix2 P k)) (fun c k => W (ix2 c k)) (fun c => b (ix1 c)) q := rfl

/-- The logistic spelt with the float word of 1.0, as the host's expansion has it. -/
theorem logistic_words (h : EReal) :
    Ideal.div (Ideal.ofBits .f32 0x3F800000#32) (Ideal.ofBits .f32 0x3F800000#32 + Ideal.exp (-h)) = Ideal.logistic h := by
  rw [one_f32]; rfl

end Cert.DenseSpec

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.KIPayload.lean ====
/-
  The kernel body's stored value read at one entry, on the extended reals.

  The payload is a function of three loaded values: a 5000×256 block of x, the 128×256 weights, the length-128 bias.
  It splits in two: the projected block plus bias (a matrix product against the transposed weights into a zero
  accumulator, plus the bias laid out as a row and repeated down the 5000 rows), and the row normalisation of that
  block (times its logistic, the sum of squares along each row from a zero accumulator, its square root as a column,
  clamped below, repeated across the 128 columns, divided by, times 1.8). Entry (p, c) of the first is `pre` of row p
  at c; entry (p, c) of the whole is `out` of row p at c. A change of float format is the identity here.
-/
import proofs.«147350_j21620865368393_1_alg».proof.Proof.Gen.KernelIdeal.Skeleton
import proofs.«147350_j21620865368393_1_alg».proof.Proof.DenseSpec
import proofs.«147350_j21620865368393_1_alg».proof.Proof.LibDotNT
import proofs.«147350_j21620865368393_1_alg».proof.Proof.LibRowBias
import proofs.«147350_j21620865368393_1_alg».proof.Proof.LibAxisFold
import proofs.«147350_j21620865368393_1_alg».proof.Proof.LibColumn

noncomputable section

open scoped BigOperators

namespace Cert.KernelIdeal.DenseValue

open Cert.KernelIdeal Cert.KernelIdeal.Gen Cert.DenseSpec
open Idealize.ShloMosaic Idealize.ShloMosaic.ValueIdx

/-- The kernel's product contracts the second axis of both operands. -/
theorem dims_NT : Cert.DotNT.IsNT dot_S5000x256_S128x256_S5000x128_1_1_0_0_n_n := ⟨rfl, rfl, rfl, rfl, rfl, rfl⟩

/-- The projected block plus bias. -/
def preBlock (x0 : FVec Ideal S5000x256 .f32) (x1 : FVec Ideal S128x256 .f32) (x2 : FVec Ideal S128 .f32) :
    FVec Ideal S5000x128 .f32 :=
  addf (matmul dot_S5000x256_S128x256_S5000x128_1_1_0_0_n_n none (truncf .bf16 x0 bitsLt_bf16_f32)
      (truncf .bf16 x1 bitsLt_bf16_f32) (constant S5000x128 .f32 0x00000000#32))
    (broadcastTo S5000x128 (shapeCast S1x128 x2 shapeCasts_S128_S1x128) broadcasts_S1x128_S5000x128)

/-- The row normalisation of a 5000×128 block. -/
def normBlock (A : FVec Ideal S5000x128 .f32) : FVec Ideal S5000x128 .f32 :=
  mulf (divf (mulf A (logistic A))
      (broadcastTo S5000x128
        (maximumf (sqrt (shapeCast S5000x1
            (multiReduction .add [1] S5000 (mulf (mulf A (logistic A)) (mulf A (logistic A))) 0x00000000#32
              reduces_S5000x128_S5000 (.inl rfl) rfl) shapeCasts_S5000_S5000x1))
          (broadcast S5000x1 (Scalar.ofBits .f32 0x2B8CBCCC#32)))
        broadcasts_S5000x1_S5000x128))
    (broadcast S5000x128 (Scalar.ofBits .f32 0x3FE66666#32))

/-- The payload is the normalisation of the projected block. -/
theorem payload_split (x0 : FVec Ideal S5000x256 .f32) (x1 : FVec Ideal S128x256 .f32) (x2 : FVec Ideal S128 .f32) :
    k0_pay1 (F := Ideal) x0 x1 x2 = normBlock (preBlock x0 x1 x2) := rfl

/-- Entry (p, c) of the projected block: the sum over the 256 inputs of x[p, k] · W[c, k], plus b[c]. -/
theorem preBlock_apply (x0 : FVec Ideal S5000x256 .f32) (x1 : FVec Ideal S128x256 .f32) (x2 : FVec Ideal S128 .f32)
    (p : Fin 5000) (c : Fin 128) :
    preBlock x0 x1 x2 (ix2 p c) = pre (fun k => x0 (ix2 p k)) (fun c k => x1 (ix2 c k)) (fun c => x2 (ix1 c)) c := by
  unfold preBlock pre
  show _ + _ = _
  refine congrArg₂ (· + ·) ?_ ?_
  · exact Cert.DotNT.matmul_zero_apply dims_NT none _ _ p c
  · exact Cert.RowBias.bias_rows (by decide) x2 shapeCasts_S128_S1x128 broadcasts_S1x128_S5000x128 p c

/-- Entry (p, c) of the normalised block, from row p of the block. -/
theorem normBlock_apply (A : FVec Ideal S5000x128 .f32) (p : Fin 5000) (c : Fin 128) :
    normBlock A (ix2 p c)
      = Ideal.div (act (A (ix2 p c)))
          (max (Ideal.sqrt (Ideal.ofBits .f32 0x00000000#32 + ∑ k : Fin 128, act (A (ix2 p k)) * act (A (ix2 p k))))
            (Ideal.ofBits .f32 0x2B8CBCCC#32))
        * Ideal.ofBits .f32 0x3FE66666#32 := by
  unfold normBlock
  show Ideal.div (act (A (ix2 p c))) (broadcastTo S5000x128 _ broadcasts_S5000x1_S5000x128 (ix2 p c))
      * Ideal.ofBits .f32 0x3FE66666#32 = _
  refine congrArg (fun z => Ideal.div (act (A (ix2 p c))) z * Ideal.ofBits .f32 0x3FE66666#32) ?_
  refine (Cert.Column.broadcastTo_a1_ab_apply _ broadcasts_S5000x1_S5000x128 p c).trans ?_
  show max (Ideal.sqrt (shapeCast S5000x1 _ shapeCasts_S5000_S5000x1 (ix2 p (0 : Fin 1)))) (Ideal.ofBits .f32 0x2B8CBCCC#32) = _
  refine congrArg (fun z => max (Ideal.sqrt z) (Ideal.ofBits .f32 0x2B8CBCCC#32)) ?_
  refine (Cert.Column.shapeCast_a_a1_apply _ shapeCasts_S5000_S5000x1 p 0).trans ?_
  refine (Cert.AxisFold.row_sum _ reduces_S5000x128_S5000 (.inl rfl) rfl p).trans ?_
  rw [Ideal.ofBits_zero_f32, zero_add]
  rfl

/-- Entry (p, c) of the payload is `out` of row p of the x block, at c. -/
theorem payload_apply (x0 : FVec Ideal S5000x256 .f32) (x1 : FVec Ideal S128x256 .f32) (x2 : FVec Ideal S128 .f32)
    (p : Fin 5000) (c : Fin 128) :
    k0_pay1 (F := Ideal) x0 x1 x2 (ix2 p c)
      = out (fun k => x0 (ix2 p k)) (fun c k => x1 (ix2 c k)) (fun c => x2 (ix1 c)) c := by
  rw [payload_split, normBlock_apply]
  unfold out sumsq
  simp only [preBlock_apply]

end Cert.KernelIdeal.DenseValue

end
-- ==== Proof.KIValue.lean ====
/-
  From the blocks the kernel writes back to its whole result array, on the extended reals.

  Point t of the grid (t < 10) stages rows 5000·t … 5000·t + 4999 of x, the whole weight matrix and the whole bias,
  and writes back rows 5000·t … 5000·t + 4999 of the result. Entry (p, c) of what it writes is `out` of row p of its
  x block (the payload lemma), and row p of that block is row 5000·t + p of x; so point t writes block t of the ONE
  array `dense x W b`. Every row of the result lies in the block of point ⌊row / 5000⌋, so after the ten points the
  result array is `dense x W b` of the float arguments as launched.
-/
import proofs.«147350_j21620865368393_1_alg».proof.Proof.KIRun
import proofs.«147350_j21620865368393_1_alg».proof.Proof.KIPayload
import Idealize.ShloMosaic.Lib.Pipeline.Value

set_option maxRecDepth 16384

noncomputable section

open scoped BigOperators

namespace Cert.KernelIdeal.DenseValue

open Cert.KernelIdeal Cert.KernelIdeal.Gen Cert.KernelIdeal.Dense Cert.DenseSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed block-index maps, decided over the ten points: x and the result move with the point along the rows;
    the weights and the bias stay at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt N_0

/-- The row of the whole arrays that row `p` of point `t`'s blocks is. -/
def rowOf (t : Fin cfg0.N) (p : Fin 5000) : Fin 50000 :=
  ⟨t.val * 5000 + p.val, by have := point_lt t; have := p.isLt; omega⟩

/-- Row p, column k of point t's x block is x at row 5000·t + p, column k. -/
theorem x_read (c : Dev nD) (t : Fin cfg0.N) (p : Fin 5000) (k : Fin 256) :
    blockAt m c 0 t (ix2 p k) = m ((c : Thread nD τ).loc main_arg0) (ix2 (rowOf t p) k) := by
  obtain ⟨e0, e1, -⟩ := index_facts t
  show m ((c : Thread nD τ).loc main_arg0) (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * k.val = k.val; omega

/-- The staged weight block is the whole weight matrix. -/
theorem w_read (c : Dev nD) (t : Fin cfg0.N) (r : Fin 128) (k : Fin 256) :
    blockAt m c 1 t (ix2 r k) = m ((c : Thread nD τ).loc main_arg3) (ix2 r k) := by
  obtain ⟨-, -, e2, e3, -⟩ := index_facts t
  show m ((c : Thread nD τ).loc main_arg3) (((cfg0.win 1).blk t).view.emb (ix2 r k)) = _
  refine congrArg _ (funext fun a => Fin.ext ?_)
  match a with
  | ⟨0, _⟩ => show win0_1.index t (0 : Fin 2) * 128 + 1 * r.val = r.val; omega
  | ⟨1, _⟩ => show win0_1.index t (1 : Fin 2) * 256 + 1 * k.val = k.val; omega

/-- The staged bias block is the whole bias vector. -/
theorem b_read (c : Dev nD) (t : Fin cfg0.N) (r : Fin 128) :
    blockAt m c 2 t (ix1 r) = m ((c : Thread nD τ).loc main_arg4) (ix1 r) := by
  obtain ⟨-, -, -, -, e4, -⟩ := index_facts t
  show m ((c : Thread nD τ).loc main_arg4) (((cfg0.win 2).blk t).view.emb (ix1 r)) = _
  refine congrArg _ (funext fun a => Fin.ext ?_)
  match a with
  | ⟨0, _⟩ => show win0_2.index t (0 : Fin 1) * 128 + 1 * r.val = r.val; omega

/-- Entry (p, q) of point t's result block sits at row 5000·t + p, column q of the result array. -/
theorem out_emb (t : Fin cfg0.N) (p : Fin 5000) (q : Fin 128) :
    ((cfg0.win 3).blk t).view.emb (ix2 p q) = ix2 (rowOf t p) q := by
  obtain ⟨-, -, -, -, -, e5, e6⟩ := index_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- WHAT POINT `t` WRITES BACK is block `t` of `dense` of the float arguments as launched. -/
theorem flushed_block (c : Dev nD) (t : Fin cfg0.N) :
    (pdat m 0 c).flushed 3 t = ((cfg0.win 3).blk t).view.read (Elt Ideal)
      (dense (m ((c : Thread nD τ).loc main_arg0)) (m ((c : Thread nD τ).loc main_arg3))
        (m ((c : Thread nD τ).loc main_arg4))) := by
  show (cfg0.win 3).cut (grid0.coords t) ((pdat m 0 c).after 3 t) = _
  rw [after_o]
  unfold blockOut
  rw [View.canon_unit_zero zero_offsets2]
  simp only [View.ld_unit_zero (S := S5000x256) zero_offsets2, View.ld_unit_zero (S := S128x256) zero_offsets2,
    View.ld_unit_zero (S := S128) zero_offsets1]
  funext j
  obtain ⟨p, q, rfl⟩ : ∃ (p : Fin 5000) (q : Fin 128), j = ix2 p q := ⟨j 0, j 1, eq_ix2 j⟩
  show k0_pay1 (F := Ideal) (blockAt m c 0 t) (blockAt m c 1 t) (blockAt m c 2 t) (ix2 p q)
      = dense _ _ _ (((cfg0.win 3).blk t).view.emb (ix2 p q))
  rw [out_emb t p q, dense_apply, payload_apply]
  simp only [x_read, w_read, b_read]

/-- An index of the result array is in point `t`'s block iff each coordinate is in the block's range on its axis. -/
theorem mem_out_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Every index of the result array is in the block of the point ⌊row / 5000⌋, which writes back. -/
theorem every_row_written (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, e5, e6⟩ := index_facts t
  refine ⟨t, flush0_3 t, ?_⟩
  rw [mem_out_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE RESULT ARRAY after the ten points: `dense` of x, the weights and the bias as launched. -/
theorem result_array (c : Dev nD) :
    (pdat m 0 c).arrAt 3 cfg0.N = dense (m ((c : Thread nD τ).loc main_arg0)) (m ((c : Thread nD τ).loc main_arg3))
      (m ((c : Thread nD τ).loc main_arg4)) :=
  (pdat m 0 c).arrAt_eq_of_cover 3 _ (fun t _ => flushed_block m c t) every_row_written

end Cert.KernelIdeal.DenseValue

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.SharedTail.lean ====
/-
  What both programs do after the dense stage, as two functions of the dense stage's result.

  From the normalised rows xp (50000×128), the edge list and the batch vector both programs run the same host
  operations: the edges with a self-loop appended per node, the in-degrees, their inverse square roots where
  positive, the per-edge weight, the rows of xp gathered at the edge sources times that weight, summed into the edge
  targets; then `propagate xp e = 0.9 · that + 0.1 · xp`, and `pool o batch` sums the rows of o into the 64 graphs.
  The reference's two results are these functions of ITS dense stage by unfolding its stages; the kernel program's two
  results are these functions of whatever the launch left in the kernel's result buffer, by reading its result
  buffers back through its 68 operations. Neither function is ever opened.
-/
import proofs.«147350_j21620865368393_1_alg».proof.Proof.KIHost
import proofs.«147350_j21620865368393_1_alg».proof.Proof.RefReadP
import proofs.«147350_j21620865368393_1_alg».proof.Proof.LibHostWalk

set_option maxRecDepth 16384

noncomputable section

namespace Cert.SharedTail

open Idealize.ShloMosaic Idealize.ShloMosaic.TcCoe Idealize.ShloMosaic.StableHlo Idealize.SL.Sem
open Cert.HostWalk

section Defs
open Cert.ReferenceIdeal Cert.ReferenceIdeal.ReadP

/-- One propagation step with teleport: 0.9 · (normalised neighbourhood sum of xp) + 0.1 · xp. -/
def propagate (xp : FVec Ideal S50000x128 .f32) (e : (⟨S2x1600000, .i32⟩ : BufTy).Contents (Elt Ideal)) :
    FVec Ideal S50000x128 .f32 :=
  addf
    (mulf (val_main_v60 (F := Ideal))
      (Host.scatterAdd scatter_S50000x128_S1650000x1_S1650000x128_1_0_0_1 (val_main_v57 (F := Ideal)) (val_main_v58 (F := Ideal) e)
        (mulf (Host.gather gather_S50000x128_S1650000x1_S1650000x128_1_0_n_n_0_1_1128 xp (val_main_v52 (F := Ideal) e))
          (val_main_v55 (F := Ideal) e))))
    (mulf (val_main_v62 (F := Ideal)) xp)

/-- The per-graph sums of the rows of `o`. -/
def pool (o : FVec Ideal S50000x128 .f32) (batch : (⟨S50000, .i32⟩ : BufTy).Contents (Elt Ideal)) :
    FVec Ideal S64x128 .f32 :=
  Host.scatterAdd scatter_S64x128_S50000x1_S50000x128_1_0_0_1 (val_main_v65 (F := Ideal)) (val_main_v66 (F := Ideal) batch) o

/-- The reference's first result is `propagate` of its dense stage. -/
theorem ref_out (x0 : (⟨S50000x256, .f32⟩ : BufTy).Contents (Elt Ideal)) (x1 : (⟨S2x1600000, .i32⟩ : BufTy).Contents (Elt Ideal))
    (x3 : (⟨S128x256, .f32⟩ : BufTy).Contents (Elt Ideal)) (x4 : (⟨S128, .f32⟩ : BufTy).Contents (Elt Ideal)) :
    val_main_v64 (F := Ideal) x0 x1 x3 x4 = propagate (val_main_v15 (F := Ideal) x0 x3 x4) x1 := rfl

/-- The reference's second result is `pool` of its first. -/
theorem ref_pool (x0 : (⟨S50000x256, .f32⟩ : BufTy).Contents (Elt Ideal)) (x1 : (⟨S2x1600000, .i32⟩ : BufTy).Contents (Elt Ideal))
    (x2 : (⟨S50000, .i32⟩ : BufTy).Contents (Elt Ideal))
    (x3 : (⟨S128x256, .f32⟩ : BufTy).Contents (Elt Ideal)) (x4 : (⟨S128, .f32⟩ : BufTy).Contents (Elt Ideal)) :
    val_main_v67 (F := Ideal) x0 x1 x2 x3 x4 = pool (val_main_v64 (F := Ideal) x0 x1 x3 x4) x2 := rfl

end Defs

section Kernel
open Cert.KernelIdeal Cert.KernelIdeal.Gen Cert.KernelIdeal.Dense

/-- The fold of the 68 later operations is the fold of the last stretch over that of the outlined `where` over that of
    the first stretch. -/
theorem tail_split (W : Valuation τ sig (Elt Ideal)) (b : DevRef τ sig) :
    StableHlo.after (tailOps (F := Ideal)).flatten W b
      = StableHlo.after hostOps1_2 (StableHlo.after hostOps1_1 (StableHlo.after hostOps1 W)) b := by
  show StableHlo.after (hostOps1 ++ (hostOps1_1 ++ (hostOps1_2 ++ []))) W b = _
  rw [List.append_nil, StableHlo.after_append, StableHlo.after_append]

set_option maxHeartbeats 4000000 in
/-- The kernel program's first result buffer, read back through its 68 later operations from any contents `W` at
    the launch's exit: `propagate` of the kernel's result buffer and the edge list there. -/
theorem kernel_out (W : Valuation τ sig (Elt Ideal)) :
    StableHlo.after (tailOps (F := Ideal)).flatten W (Proc.devRef .tc main_v49)
      = propagate (W (Proc.devRef .tc main_v0)) (W (Proc.devRef .tc main_arg1)) := by
  rw [tail_split]
  simp only [hostOps1, hostOps1_1, hostOps1_2]
  walk_back []
  rfl

set_option maxHeartbeats 4000000 in
/-- Its second result buffer: `pool` of the first result and the batch vector. -/
theorem kernel_pool (W : Valuation τ sig (Elt Ideal)) :
    StableHlo.after (tailOps (F := Ideal)).flatten W (Proc.devRef .tc main_v52)
      = pool (propagate (W (Proc.devRef .tc main_v0)) (W (Proc.devRef .tc main_arg1))) (W (Proc.devRef .tc main_arg2)) := by
  rw [tail_split]
  simp only [hostOps1, hostOps1_1, hostOps1_2]
  walk_back []
  rfl

end Kernel

end Cert.SharedTail

end
-- ==== Proof.KIResult.lean ====
/-
  The idealized kernel program's two results, on the extended reals.

  The run leaves the kernel's result buffer at `dense x W b` (the blocks-to-array module) and every buffer that
  bypasses the launch as launched; the 68 later operations then compute `propagate` of that buffer and the edge list,
  and `pool` of that and the batch vector (the shared-tail module). So the program ends with its first result at
  `propagate (dense x W b) edges`, its second at `pool` of the first and `batch`, and its five arguments unchanged.
-/
import proofs.«147350_j21620865368393_1_alg».proof.Proof.KIValue
import proofs.«147350_j21620865368393_1_alg».proof.Proof.SharedTail

set_option maxRecDepth 16384

noncomputable section

namespace Cert.KernelIdeal.DenseValue

open Cert.KernelIdeal Cert.KernelIdeal.Gen Cert.KernelIdeal.Dense Cert.DenseSpec Cert.SharedTail
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the launch leaves, read at the kernel's result buffer: `dense` of the float arguments. -/
theorem exit_result (c : Dev nD) :
    Pipeline.withArrays spec0 c (entry m c) (fun w => (pdat m 0 c).arrAt w cfg0.N) (Proc.devRef .tc main_v0)
      = dense (m ((c : Thread nD τ).loc main_arg0)) (m ((c : Thread nD τ).loc main_arg3)) (m ((c : Thread nD τ).loc main_arg4)) :=
  (Pipeline.withArrays_arr spec0 launch0.win.arr_inj c (entry m c) _ 3).trans (result_array m c)

/-- The edge list and the batch vector bypass the launch. -/
theorem exit_edges (c : Dev nD) :
    Pipeline.withArrays spec0 c (entry m c) (fun w => (pdat m 0 c).arrAt w cfg0.N) (Proc.devRef .tc main_arg1)
      = m ((c : Thread nD τ).loc main_arg1) :=
  Pipeline.withArrays_of_ne spec0 c (entry m c) _ main_arg1 (by decide)
theorem exit_batch (c : Dev nD) :
    Pipeline.withArrays spec0 c (entry m c) (fun w => (pdat m 0 c).arrAt w cfg0.N) (Proc.devRef .tc main_arg2)
      = m ((c : Thread nD τ).loc main_arg2) :=
  Pipeline.withArrays_of_ne spec0 c (entry m c) _ main_arg2 (by decide)

/-- The first result after the later operations. -/
theorem out_value (c : Dev nD) :
    Pipeline.afterTail₀ cfgs (pdat m) 0 (entry m) tailOps c main_v49
      = propagate (dense (m ((c : Thread nD τ).loc main_arg0)) (m ((c : Thread nD τ).loc main_arg3))
          (m ((c : Thread nD τ).loc main_arg4))) (m ((c : Thread nD τ).loc main_arg1)) := by
  unfold Pipeline.afterTail₀
  refine (kernel_out _).trans ?_
  rw [exit_result, exit_edges]

/-- The second result after the later operations. -/
theorem pool_value (c : Dev nD) :
    Pipeline.afterTail₀ cfgs (pdat m) 0 (entry m) tailOps c main_v52
      = pool (propagate (dense (m ((c : Thread nD τ).loc main_arg0)) (m ((c : Thread nD τ).loc main_arg3))
          (m ((c : Thread nD τ).loc main_arg4))) (m ((c : Thread nD τ).loc main_arg1))) (m ((c : Thread nD τ).loc main_arg2)) := by
  unfold Pipeline.afterTail₀
  refine (kernel_pool _).trans ?_
  rw [exit_result, exit_edges, exit_batch]

/-- THE RUN WITH ITS VALUES: both results as functions of the arguments, the arguments unchanged. -/
theorem run_values : θ_run defs (onTc (τ := τ) (main (F := Ideal))) ⟨m, fun _ => 0, ρ⟩ (fun r => ∀ c : Dev nD,
      r.2.mem ((c.tc : Thread nD τ).loc main_v49)
        = propagate (dense (m ((c.tc : Thread nD τ).loc main_arg0)) (m ((c.tc : Thread nD τ).loc main_arg3))
            (m ((c.tc : Thread nD τ).loc main_arg4))) (m ((c.tc : Thread nD τ).loc main_arg1))
      ∧ r.2.mem ((c.tc : Thread nD τ).loc main_v52)
        = pool (propagate (dense (m ((c.tc : Thread nD τ).loc main_arg0)) (m ((c.tc : Thread nD τ).loc main_arg3))
            (m ((c.tc : Thread nD τ).loc main_arg4))) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v49 (Pipeline.mem_restRefs_of main_v49 (by decide) (by decide))).trans (out_value m c),
     ((h c).2 main_v52 (Pipeline.mem_restRefs_of main_v52 (by decide) (by decide))).trans (pool_value m c),
     ((h c).1 0).trans (staged_input_kept m c 0 rfl),
     ((h c).2 main_arg1 (Pipeline.mem_restRefs_of main_arg1 (by decide) (by decide))).trans (edges_kept m c),
     ((h c).2 main_arg2 (Pipeline.mem_restRefs_of main_arg2 (by decide) (by decide))).trans (batch_kept m c),
     ((h c).1 1).trans (staged_input_kept m c 1 rfl),
     ((h c).1 2).trans (staged_input_kept m c 2 rfl)⟩) (run_all m ρ)

end Cert.KernelIdeal.DenseValue

end
-- ==== Proof.RefDense.lean ====
/-
  The reference's dense stage is the specification's `dense`, as whole arrays, on the extended reals.

  The reference transposes the weights, multiplies, adds the bias broadcast down the rows, multiplies by the logistic
  spelt out as 1 / (1 + e^(−h)), sums the squares along each row from a zero initial value, takes the square root as
  a column, clamps it below, repeats it across the columns, divides, and scales. Each operation is read at an index by
  the generated read lemmas; what is left is to identify the composed index maps with plain coordinates and the
  spelt-out logistic with the logistic.
-/
import proofs.«147350_j21620865368393_1_alg».proof.Proof.RefReadP
import proofs.«147350_j21620865368393_1_alg».proof.Proof.DenseSpec

noncomputable section

open scoped BigOperators

namespace Cert.ReferenceIdeal.DenseValue

open Cert.ReferenceIdeal Cert.ReferenceIdeal.ReadP Cert.DenseSpec
open Idealize.ShloMosaic Idealize.ShloMosaic.ValueIdx

/-- The left operand of the product at (P, c), term k, is x[P, k]. -/
theorem left_index (P : Fin 50000) (c : Fin 128) (k : Fin 256) : lidx_main_v1 (ix2 P c) k = ix2 P k :=
  funext fun a => Fin.ext (by match a with | ⟨0, _⟩ => rfl | ⟨1, _⟩ => rfl)
/-- The right operand there, read through the transposition, is W[c, k]. -/
theorem right_index (P : Fin 50000) (c : Fin 128) (k : Fin 256) : idx_main_v0 (ridx_main_v1 (ix2 P c) k) = ix2 c k :=
  funext fun a => Fin.ext (by match a with | ⟨0, _⟩ => rfl | ⟨1, _⟩ => rfl)
/-- The bias row repeated down the rows, at (P, c), is b[c]. -/
theorem bias_index (P : Fin 50000) (c : Fin 128) : idx_main_v2 (idx_main_v3 (ix2 P c)) = ix1 c :=
  funext fun a => Fin.ext (by match a with | ⟨0, _⟩ => rfl)
/-- The row norm repeated across the columns, at (P, c), sums row P: its term k is at (P, k). -/
theorem row_index (P : Fin 50000) (c : Fin 128) (k : Fin 128) :
    idx_main_v7 (idx_main_v8 (idx_main_v12 (ix2 P c))) k = ix2 P k :=
  funext fun a => Fin.ext (by match a with | ⟨0, _⟩ => rfl | ⟨1, _⟩ => rfl)

/-- Entry (P, c) of the projected rows plus bias. -/
theorem pre_apply (x0 : (⟨S50000x256, .f32⟩ : BufTy).Contents (Elt Ideal)) (x3 : (⟨S128x256, .f32⟩ : BufTy).Contents (Elt Ideal))
    (x4 : (⟨S128, .f32⟩ : BufTy).Contents (Elt Ideal)) (P : Fin 50000) (c : Fin 128) :
    val_main_v4 (F := Ideal) x0 x3 x4 (ix2 P c)
      = pre (fun k => x0 (ix2 P k)) (fun c k => x3 (ix2 c k)) (fun c => x4 (ix1 c)) c := by
  rw [val_main_v4_apply, val_main_v1_apply, val_main_v3_apply, val_main_v2_apply]
  simp only [val_main_v0_apply, left_index, right_index, bias_index]
  rfl

/-- The outlined activation at an index: h · logistic h of the entry below it. -/
theorem act_apply (x0 : (⟨S50000x256, .f32⟩ : BufTy).Contents (Elt Ideal)) (x3 : (⟨S128x256, .f32⟩ : BufTy).Contents (Elt Ideal))
    (x4 : (⟨S128, .f32⟩ : BufTy).Contents (Elt Ideal)) (i : S50000x128.Idx) :
    val_main_v5 (F := Ideal) x0 x3 x4 i = act (val_main_v4 (F := Ideal) x0 x3 x4 i) := by
  simp only [val_main_v5_apply, val_main_call0_v5_apply, val_main_call0_v4_apply, val_main_call0_cst_0_apply,
    val_main_call0_v3_apply, val_main_call0_v2_apply, val_main_call0_cst_apply, val_main_call0_v1_apply,
    val_main_call0_v0_apply]
  exact congrArg (val_main_v4 (F := Ideal) x0 x3 x4 i * ·) (logistic_words _)

/-- Entry (P, c) of the normalised, scaled rows, from row P of the activated rows. -/
theorem scaled_apply (x0 : (⟨S50000x256, .f32⟩ : BufTy).Contents (Elt Ideal)) (x3 : (⟨S128x256, .f32⟩ : BufTy).Contents (Elt Ideal))
    (x4 : (⟨S128, .f32⟩ : BufTy).Contents (Elt Ideal)) (P : Fin 50000) (c : Fin 128) :
    val_main_v15 (F := Ideal) x0 x3 x4 (ix2 P c)
      = Ideal.div (val_main_v5 (F := Ideal) x0 x3 x4 (ix2 P c))
          (max (Ideal.sqrt (Ideal.ofBits .f32 0x00000000#32
              + ∑ k : Fin 128, val_main_v5 (F := Ideal) x0 x3 x4 (ix2 P k) * val_main_v5 (F := Ideal) x0 x3 x4 (ix2 P k)))
            (Ideal.ofBits .f32 0x2B8CBCCC#32))
        * Ideal.ofBits .f32 0x3FE66666#32 := by
  rw [val_main_v15_apply, val_main_v13_apply, val_main_v14_apply, val_main_cst_1_apply, val_main_v12_apply,
    val_main_v11_apply, val_main_v10_apply, val_main_cst_0_apply, val_main_v9_apply, val_main_v8_apply,
    val_main_v7_apply, val_main_cst_apply]
  simp only [val_main_v6_apply, row_index]
  rfl

/-- The reference's dense stage, as a whole array, is `dense` of the three float arguments. -/
theorem dense_eq (x0 : (⟨S50000x256, .f32⟩ : BufTy).Contents (Elt Ideal)) (x3 : (⟨S128x256, .f32⟩ : BufTy).Contents (Elt Ideal))
    (x4 : (⟨S128, .f32⟩ : BufTy).Contents (Elt Ideal)) :
    val_main_v15 (F := Ideal) x0 x3 x4 = dense x0 x3 x4 := by
  funext i
  obtain ⟨P, c, rfl⟩ : ∃ (P : Fin 50000) (c : Fin 128), i = ix2 P c := ⟨i 0, i 1, eq_ix2 i⟩
  rw [dense_apply, scaled_apply]
  simp only [act_apply, pre_apply]
  rfl

end Cert.ReferenceIdeal.DenseValue

end
-- ==== Proof.lean ====
/-
  A dense layer with SiLU and row normalisation in a pipelined kernel, followed on the host by one step of graph
  propagation and a per-graph sum, against the same computation written entirely on the host.

  The kernel computes, for each row of x, (x·Wᵀ + b) times its logistic, divided by its Euclidean norm clamped
  below by 1e-12, times 1.8 — over ten blocks of 5000 rows — and the host then runs 68 operations on that result, the
  edge list and the batch vector. The reference computes the same rows on the host (the logistic spelt out as
  1 / (1 + e^(−h)), the product against an explicit transpose) and then runs the same 68 operations.

  On the extended reals the two dense stages are ONE function `dense x W b`, row by row: a change of float format is
  the identity, the matrix unit's product into a zero accumulator and the host's product are the same finite sum,
  the lane sum from a zero accumulator and the host's sum from a zero initial value are the same finite sum, and the
  logistic is its own spelling-out. The 68 later operations are carried as two functions, `propagate` and `pool`,
  applied to that array and never opened. No law used needs the inputs to be finite, so the precondition is not opened.

  The three frames: the kernel program's, at the word level and at the extended reals, from the pipeline's frame run
  with the body's triple (the body reads three staging buffers and overwrites a fourth); the reference's from its run
  with the results dropped. The idealisation rewrote nothing, so there is nothing to preserve.
-/
import proofs.«147350_j21620865368393_1_alg».proof.Defs
import proofs.«147350_j21620865368393_1_alg».proof.Proof.Gen.Kernel
import proofs.«147350_j21620865368393_1_alg».proof.Proof.Gen.KernelIdeal
import proofs.«147350_j21620865368393_1_alg».proof.Proof.Gen.ReferenceIdeal
import proofs.«147350_j21620865368393_1_alg».proof.Proof.Gen.Pre_finite_inputs
import proofs.«147350_j21620865368393_1_alg».proof.Proof.KRun
import proofs.«147350_j21620865368393_1_alg».proof.Proof.KIResult
import proofs.«147350_j21620865368393_1_alg».proof.Proof.RefDense
import Idealize.ShloMosaic.Adequacy
import Idealize.ShloMosaic.Init

noncomputable section

namespace Cert.Proof

open Idealize.ShloMosaic Idealize.SL.Sem

/-- The word-level kernel program runs to the end and keeps its arguments. -/
theorem frame_k : Cert.frame_Kernel := fun m ρ _ => Cert.Kernel.Dense.frame m ρ

/-- So does the idealized one. -/
theorem frame_ki : Cert.frame_KernelIdeal := fun m ρ _ => Cert.KernelIdeal.Dense.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealisation rewrote no operation. -/
theorem preserves : Cert.preserves_Kernel_KernelIdeal := trivial

/-- Both programs end with `propagate (dense x W b) edges` and its `pool` over `batch`, of arguments that agree. -/
theorem algebraic : Cert.algebraic_KernelIdeal_ReferenceIdeal := by
  intro m ρ m' ρ' _ hagree
  refine ⟨_, _, Cert.KernelIdeal.DenseValue.run_values m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.ReadP.val_main_v64_eq, Cert.SharedTail.ref_out,
      Cert.ReferenceIdeal.DenseValue.dense_eq, (hagree c).1, (hagree c).2.1, (hagree c).2.2.2.1, (hagree c).2.2.2.2]
  · rw [(h c).2.1, Cert.ReferenceIdeal.ReadP.val_main_v67_eq, Cert.SharedTail.ref_pool, Cert.SharedTail.ref_out,
      Cert.ReferenceIdeal.DenseValue.dense_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
